-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel

variable [Facts]

def fn {F : FTy → Type} [FloatOps F] (main_arg0 : FVec F S16x64x256x256 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  main_v3
-- ==== Kernel.lean ====
abbrev S16x64x256x256 : Shape := ⟨4, ![16, 64, 256, 256]⟩
abbrev S1024x256x256 : Shape := ⟨3, ![1024, 256, 256]⟩
abbrev S1024x262x262 : Shape := ⟨3, ![1024, 262, 262]⟩
abbrev S32x256x256 : Shape := ⟨3, ![32, 256, 256]⟩
abbrev S32x262x262 : Shape := ⟨3, ![32, 262, 262]⟩
abbrev S32x1x256 : Shape := ⟨3, ![32, 1, 256]⟩
abbrev S32x262x256 : Shape := ⟨3, ![32, 262, 256]⟩
abbrev S32x262x1 : Shape := ⟨3, ![32, 262, 1]⟩
abbrev S16x64x262x262 : Shape := ⟨4, ![16, 64, 262, 262]⟩

abbrev nBuf : Space → Nat
  | .hbm => 4
  | .vmem => 4
  | .smem => 0
  | _ => 0

abbrev bufTy : (tb : Table) → Fin (tcTables nBuf tb) → BufTy
  | .hbm, ⟨0, _⟩ => ⟨S16x64x256x256, .f32⟩
  | .hbm, ⟨1, _⟩ => ⟨S1024x256x256, .f32⟩
  | .hbm, ⟨2, _⟩ => ⟨S1024x262x262, .f32⟩
  | .hbm, ⟨3, _⟩ => ⟨S16x64x262x262, .f32⟩
  | .local _ .vmem, ⟨0, _⟩ => ⟨S32x256x256, .f32⟩
  | .local _ .vmem, ⟨1, _⟩ => ⟨S32x256x256, .f32⟩
  | .local _ .vmem, ⟨2, _⟩ => ⟨S32x262x262, .f32⟩
  | .local _ .vmem, ⟨3, _⟩ => ⟨S32x262x262, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x262x262 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x64x256x256_S1024x256x256 : S16x64x256x256.ShapeCasts S1024x256x256
  inb_S32x256x256_S32x256x256_0_0_0 : ∀ a, (![0, 0, 0] : Fin 3 → Nat) a + S32x256x256.size a ≤ S32x256x256.size a
  h_S32x256x256 : 0 < S32x256x256.numel
  shapeCasts_S32x256x256_S32x256x256 : S32x256x256.ShapeCasts S32x256x256
  slices_S32x256x256_o0_2_0_S32x1x256 : S32x256x256.Slices ![0, 2, 0] S32x1x256
  slices_S32x256x256_o0_1_0_S32x1x256 : S32x256x256.Slices ![0, 1, 0] S32x1x256
  slices_S32x256x256_o0_0_0_S32x1x256 : S32x256x256.Slices ![0, 0, 0] S32x1x256
  slices_S32x256x256_o0_255_0_S32x1x256 : S32x256x256.Slices ![0, 255, 0] S32x1x256
  slices_S32x256x256_o0_254_0_S32x1x256 : S32x256x256.Slices ![0, 254, 0] S32x1x256
  slices_S32x256x256_o0_253_0_S32x1x256 : S32x256x256.Slices ![0, 253, 0] S32x1x256
  concatenates_S32x1x256_S32x1x256_S32x1x256_S32x256x256_S32x1x256_S32x1x256_S32x1x256_S32x262x256_d1 : Shape.Concatenates [S32x1x256, S32x1x256, S32x1x256, S32x256x256, S32x1x256, S32x1x256, S32x1x256] S32x262x256 1
  slices_S32x262x256_o0_0_2_S32x262x1 : S32x262x256.Slices ![0, 0, 2] S32x262x1
  slices_S32x262x256_o0_0_1_S32x262x1 : S32x262x256.Slices ![0, 0, 1] S32x262x1
  slices_S32x262x256_o0_0_0_S32x262x1 : S32x262x256.Slices ![0, 0, 0] S32x262x1
  slices_S32x262x256_o0_0_255_S32x262x1 : S32x262x256.Slices ![0, 0, 255] S32x262x1
  slices_S32x262x256_o0_0_254_S32x262x1 : S32x262x256.Slices ![0, 0, 254] S32x262x1
  slices_S32x262x256_o0_0_253_S32x262x1 : S32x262x256.Slices ![0, 0, 253] S32x262x1
  concatenates_S32x262x1_S32x262x1_S32x262x1_S32x262x256_S32x262x1_S32x262x1_S32x262x1_S32x262x262_d2 : Shape.Concatenates [S32x262x1, S32x262x1, S32x262x1, S32x262x256, S32x262x1, S32x262x1, S32x262x1] S32x262x262 2
  inb_S32x262x262_S32x262x262_0_0_0 : ∀ a, (![0, 0, 0] : Fin 3 → Nat) a + S32x262x262.size a ≤ S32x262x262.size a
  h_S32x262x262 : 0 < S32x262x262.numel
  shapeCasts_S1024x262x262_S16x64x262x262 : S1024x262x262.ShapeCasts S16x64x262x262
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x256.size a ≤ S1024x256x256.size a
  hwx0_0 : ∀ i : grid0.Coords, EltTy.bits .f32 = 32 ∨ (Rect.block (s := S1024x256x256) S32x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x262x262.size a ≤ S1024x262x262.size a
  hwx0_1 : ∀ i : grid0.Coords, EltTy.bits .f32 = 32 ∨ (Rect.block (s := S1024x262x262) S32x262x262.size (cc0_transform_1 i) (hinb0_1 i)).WholeWords (EltTy.packing .f32)

variable [Facts₀]

abbrev win0_0 : Pipeline.Window sig grid0 :=
  Pipeline.Window.ofSpec (Memref.whole main_v0) S32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x262x262.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S3 : Shape := ⟨1, ![3]⟩
abbrev S_ : Shape := ⟨0, ![]⟩
abbrev S256 : Shape := ⟨1, ![256]⟩
abbrev S262 : Shape := ⟨1, ![262]⟩
abbrev S262x1 : Shape := ⟨2, ![262, 1]⟩
abbrev S1x262 : Shape := ⟨2, ![1, 262]⟩
abbrev S262x262 : Shape := ⟨2, ![262, 262]⟩
abbrev S262x262x1 : Shape := ⟨3, ![262, 262, 1]⟩
abbrev S262x262x2 : Shape := ⟨3, ![262, 262, 2]⟩
abbrev S16x64x262x262 : Shape := ⟨4, ![16, 64, 262, 262]⟩

abbrev nBuf : Space → Nat
  | .hbm => 43
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S3, .i32⟩
  | .hbm, ⟨2, _⟩ => ⟨S_, .i32⟩
  | .hbm, ⟨3, _⟩ => ⟨S3, .i32⟩
  | .hbm, ⟨4, _⟩ => ⟨S3, .i32⟩
  | .hbm, ⟨5, _⟩ => ⟨S256, .i32⟩
  | .hbm, ⟨6, _⟩ => ⟨S3, .i32⟩
  | .hbm, ⟨7, _⟩ => ⟨S_, .i32⟩
  | .hbm, ⟨8, _⟩ => ⟨S3, .i32⟩
  | .hbm, ⟨9, _⟩ => ⟨S3, .i32⟩
  | .hbm, ⟨10, _⟩ => ⟨S262, .i32⟩
  | .hbm, ⟨11, _⟩ => ⟨S3, .i32⟩
  | .hbm, ⟨12, _⟩ => ⟨S_, .i32⟩
  | .hbm, ⟨13, _⟩ => ⟨S3, .i32⟩
  | .hbm, ⟨14, _⟩ => ⟨S3, .i32⟩
  | .hbm, ⟨15, _⟩ => ⟨S256, .i32⟩
  | .hbm, ⟨16, _⟩ => ⟨S3, .i32⟩
  | .hbm, ⟨17, _⟩ => ⟨S_, .i32⟩
  | .hbm, ⟨18, _⟩ => ⟨S3, .i32⟩
  | .hbm, ⟨19, _⟩ => ⟨S3, .i32⟩
  | .hbm, ⟨20, _⟩ => ⟨S262, .i32⟩
  | .hbm, ⟨21, _⟩ => ⟨S262x1, .i32⟩
  | .hbm, ⟨22, _⟩ => ⟨S1x262, .i32⟩
  | .hbm, ⟨23, _⟩ => ⟨S_, .i32⟩
  | .hbm, ⟨24, _⟩ => ⟨S262x1, .i32⟩
  | .hbm, ⟨25, _⟩ => ⟨S262x1, .i1⟩
  | .hbm, ⟨26, _⟩ => ⟨S_, .i32⟩
  | .hbm, ⟨27, _⟩ => ⟨S262x1, .i32⟩
  | .hbm, ⟨28, _⟩ => ⟨S262x1, .i32⟩
  | .hbm, ⟨29, _⟩ => ⟨S262x1, .i32⟩
  | .hbm, ⟨30, _⟩ => ⟨S_, .i32⟩
  | .hbm, ⟨31, _⟩ => ⟨S1x262, .i32⟩
  | .hbm, ⟨32, _⟩ => ⟨S1x262, .i1⟩
  | .hbm, ⟨33, _⟩ => ⟨S_, .i32⟩
  | .hbm, ⟨34, _⟩ => ⟨S1x262, .i32⟩
  | .hbm, ⟨35, _⟩ => ⟨S1x262, .i32⟩
  | .hbm, ⟨36, _⟩ => ⟨S1x262, .i32⟩
  | .hbm, ⟨37, _⟩ => ⟨S262x262, .i32⟩
  | .hbm, ⟨38, _⟩ => ⟨S262x262, .i32⟩
  | .hbm, ⟨39, _⟩ => ⟨S262x262x1, .i32⟩
  | .hbm, ⟨40, _⟩ => ⟨S262x262x1, .i32⟩
  | .hbm, ⟨41, _⟩ => ⟨S262x262x2, .i32⟩
  | .hbm, ⟨42, _⟩ => ⟨S16x64x262x262, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_3 : Ref sig .tc := ⟨.hbm, 23, rfl⟩
abbrev main_v18 : Ref sig .tc := ⟨.hbm, 24, rfl⟩
abbrev main_v19 : Ref sig .tc := ⟨.hbm, 25, rfl⟩
abbrev main_c_4 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_5 : Ref sig .tc := ⟨.hbm, 30, rfl⟩
abbrev main_v23 : Ref sig .tc := ⟨.hbm, 31, rfl⟩
abbrev main_v24 : Ref sig .tc := ⟨.hbm, 32, rfl⟩
abbrev main_c_6 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]

class Facts₀ : Prop where
  bcast_S_S3 : S_.BroadcastsInDim S3 (![] : Fin 0 → Fin S3.rank)
  concatenates_S3_S256_S3_S262_d0 : Shape.Concatenates [S3, S256, S3] S262 0
  bcast_S262_S262x1_0 : S262.BroadcastsInDim S262x1 (![0] : Fin 1 → Fin S262x1.rank)
  bcast_S262_S1x262_1 : S262.BroadcastsInDim S1x262 (![1] : Fin 1 → Fin S1x262.rank)
  bcast_S_S262x1 : S_.BroadcastsInDim S262x1 (![] : Fin 0 → Fin S262x1.rank)
  bcast_S_S1x262 : S_.BroadcastsInDim S1x262 (![] : Fin 0 → Fin S1x262.rank)
  bcast_S262x1_S262x262_0_1 : S262x1.BroadcastsInDim S262x262 (![0, 1] : Fin 2 → Fin S262x262.rank)
  bcast_S1x262_S262x262_0_1 : S1x262.BroadcastsInDim S262x262 (![0, 1] : Fin 2 → Fin S262x262.rank)
  bcast_S262x262_S262x262x1_0_1 : S262x262.BroadcastsInDim S262x262x1 (![0, 1] : Fin 2 → Fin S262x262x1.rank)
  concatenates_S262x262x1_S262x262x1_S262x262x2_d2 : Shape.Concatenates [S262x262x1, S262x262x1] S262x262x2 2
  gather_S16x64x256x256_S262x262x2_S16x64x262x262_01_23_n_n_23_2_166411_wf : GatherDims.WF S16x64x256x256 S262x262x2 S16x64x262x262 [0, 1] [2, 3] [] [2, 3] [] 2 ![16, 64, 1, 1]

variable [Facts₀]

def gather_S16x64x256x256_S262x262x2_S16x64x262x262_01_23_n_n_23_2_166411 : GatherDims S16x64x256x256 S262x262x2 S16x64x262x262 where
  offsetDims := [0, 1]
  collapsedSliceDims := [2, 3]
  operandBatchingDims := []
  startIndicesBatchingDims := []
  startIndexMap := [2, 3]
  indexVectorDim := 2
  sliceSizes := ![16, 64, 1, 1]
  wf := gather_S16x64x256x256_S262x262x2_S16x64x262x262_01_23_n_n_23_2_166411_wf

class Facts : Prop extends Facts₀ where

variable [Facts]
-- ==== Proof.Mirror.lean ====
/-
  Symmetric padding by three — "mirror, the edge included" — of the two trailing axes of an array,
  written as ONE function of the output index.

  Along a padded axis of 256 + 3 + 3 = 262 positions, output position `r` reads input position
      2 - r      when r < 3          (the first three positions, reversed: 2, 1, 0),
      r - 3      when 3 ≤ r < 259    (the array itself),
      514 - r    when 259 ≤ r        (the last three positions, reversed: 255, 254, 253).
  The two axes are padded independently, so the padded array at (…, r, q) is the array at
  (…, mirror r, mirror q): mirroring the rows first and the columns of the result afterwards, or
  looking both coordinates up at once, is the same function.
-/
import Idealize.ShloMosaic.Lib.ValueIdx

namespace Cert.SymPad

open Idealize.ShloMosaic Idealize.ShloMosaic.ValueIdx

/-- The input position an output position reads, as a natural number. -/
def mirN (r : Nat) : Nat := if r < 3 then 2 - r else if r < 259 then r - 3 else 514 - r

/-- An output position below 262 reads an input position below 256. -/
theorem mirN_lt {r : Nat} (h : r < 262) : mirN r < 256 := by
  unfold mirN; split_ifs <;> omega

theorem mirN_low {r : Nat} (h : r < 3) : mirN r = 2 - r := by unfold mirN; rw [if_pos h]
theorem mirN_mid {r : Nat} (h₁ : 3 ≤ r) (h₂ : r < 259) : mirN r = r - 3 := by
  unfold mirN; rw [if_neg (by omega), if_pos h₂]
theorem mirN_high {r : Nat} (h : 259 ≤ r) : mirN r = 514 - r := by
  unfold mirN; rw [if_neg (by omega), if_neg (by omega)]

/-- The same on the coordinate types of the two extents. -/
def mir (r : Fin 262) : Fin 256 := ⟨mirN r.val, mirN_lt r.isLt⟩

@[simp] theorem mir_val (r : Fin 262) : (mir r).val = mirN r.val := rfl

/-- The padded array, for an array of 16 × 64 images. -/
def padded {α : Type} (x : (⟨4, ![16, 64, 256, 256]⟩ : Shape).Idx → α) :
    (⟨4, ![16, 64, 262, 262]⟩ : Shape).Idx → α :=
  fun i => x (ix4 (i 0 : Fin 16) (i 1 : Fin 64) (mir (i 2)) (mir (i 3)))

/-- The padded array, for the same images as one axis of 1024. -/
def paddedFlat {α : Type} (x : (⟨3, ![1024, 256, 256]⟩ : Shape).Idx → α) :
    (⟨3, ![1024, 262, 262]⟩ : Shape).Idx → α :=
  fun i => x (ix3 (i 0 : Fin 1024) (mir (i 1)) (mir (i 2)))

end Cert.SymPad
-- ==== Proof.PadBody.lean ====
/-
  The kernel body's one stored value, read at an index.

  The body loads a block of 32 images, joins along the row axis the rows 2, 1, 0, then the block,
  then the rows 255, 254, 253 (each a one-row slice of the block), and joins along the column axis
  the columns 2, 1, 0 of THAT result, the result itself, and its columns 255, 254, 253.  A join read
  at a position is the piece whose span holds the position, read at the position less the extents
  before it; a one-row (one-column) slice at offset `o` read at its only row is the operand's row
  `o`.  So the row join at row `r` is the block's row `mirror r`, the column join at column `q` is the
  row join's column `mirror q`, and the stored value at (n, r, q) is the block at
  (n, mirror r, mirror q).  No arithmetic on the elements is involved: the statements hold for
  elements of any type.
-/
import proofs.«128857_j12421045420114_1_alg».proof.Proof.Gen.KernelIdeal.Skeleton
import proofs.«128857_j12421045420114_1_alg».proof.Proof.Mirror
import Idealize.ShloMosaic.Lib.Pipeline.Value
import Idealize.ShloMosaic.Lib.ValueIdx

noncomputable section

namespace Cert.KernelIdeal.Body

open Cert.KernelIdeal Cert.KernelIdeal.Gen Cert.SymPad
open Idealize.ShloMosaic Idealize.ShloMosaic.ValueIdx

variable {α : Type}

/-! ## A one-row and a one-column slice at their only row / column -/

/-- The one-row slice of a block at row offset `o`, read at (n, 0, q), is the block at (n, o, q). -/
theorem rowSlice_apply (v : S32x256x256.Idx → α) (o : Nat) (ho : S32x256x256.Slices ![0, o, 0] S32x1x256)
    (n : Fin 32) (q : Fin 256) (p : Fin 256) (hp : p.val = o) :
    extractStridedSlice S32x1x256 ![0, o, 0] v ho (ix3 n (0 : Fin 1) q) = v (ix3 n p q) :=
  extractStridedSlice_apply _ v ho _ (ix3 n p q) fun a => by
    match a with
    | ⟨0, _⟩ => show n.val = 0 + n.val; omega
    | ⟨1, _⟩ => show p.val = o + 0; omega
    | ⟨2, _⟩ => show q.val = 0 + q.val; omega

/-- The one-column slice of a row-padded block at column offset `o`, read at (n, r, 0), is that block at (n, r, o). -/
theorem colSlice_apply (w : S32x262x256.Idx → α) (o : Nat) (ho : S32x262x256.Slices ![0, 0, o] S32x262x1)
    (n : Fin 32) (r : Fin 262) (p : Fin 256) (hp : p.val = o) :
    extractStridedSlice S32x262x1 ![0, 0, o] w ho (ix3 n r (0 : Fin 1)) = w (ix3 n r p) :=
  extractStridedSlice_apply _ w ho _ (ix3 n r p) fun a => by
    match a with
    | ⟨0, _⟩ => show n.val = 0 + n.val; omega
    | ⟨1, _⟩ => show r.val = 0 + r.val; omega
    | ⟨2, _⟩ => show p.val = o + 0; omega

/-! ## The row join -/

/-- The seven pieces joined along the row axis: rows 2, 1, 0; the block; rows 255, 254, 253. -/
abbrev rowPieces (v : S32x256x256.Idx → α)
    (h2 : S32x256x256.Slices ![0, 2, 0] S32x1x256) (h1 : S32x256x256.Slices ![0, 1, 0] S32x1x256)
    (h0 : S32x256x256.Slices ![0, 0, 0] S32x1x256) (h255 : S32x256x256.Slices ![0, 255, 0] S32x1x256)
    (h254 : S32x256x256.Slices ![0, 254, 0] S32x1x256) (h253 : S32x256x256.Slices ![0, 253, 0] S32x1x256) :
    List ((s : Shape) × (s.Idx → α)) :=
  [⟨S32x1x256, extractStridedSlice S32x1x256 ![0, 2, 0] v h2⟩, ⟨S32x1x256, extractStridedSlice S32x1x256 ![0, 1, 0] v h1⟩,
   ⟨S32x1x256, extractStridedSlice S32x1x256 ![0, 0, 0] v h0⟩, ⟨S32x256x256, v⟩,
   ⟨S32x1x256, extractStridedSlice S32x1x256 ![0, 255, 0] v h255⟩, ⟨S32x1x256, extractStridedSlice S32x1x256 ![0, 254, 0] v h254⟩,
   ⟨S32x1x256, extractStridedSlice S32x1x256 ![0, 253, 0] v h253⟩]

/-- The row join at row `r` is the block's row `mirror r`. -/
theorem rowJoin_apply (v : S32x256x256.Idx → α) (h2 h1 h0 h255 h254 h253)
    (hc : Shape.Concatenates ((rowPieces v h2 h1 h0 h255 h254 h253).map (·.1)) S32x262x256 1)
    (n : Fin 32) (r : Fin 262) (q : Fin 256) :
    concatenate S32x262x256 1 (rowPieces v h2 h1 h0 h255 h254 h253) hc (ix3 n r q) = v (ix3 n (mir r) q) := by
  have hr := r.isLt
  -- off the row axis a one-row piece's index has the output index's coordinates
  have hi : ∀ b : Fin S32x1x256.rank, b.cast (rfl : S32x1x256.rank = S32x262x256.rank) ≠ (1 : Fin 3) →
      ((ix3 n (0 : Fin 1) q : S32x1x256.Idx) b).val = ((ix3 n r q : S32x262x256.Idx) (b.cast rfl)).val := fun b hb => by
    match b with
    | ⟨0, _⟩ => rfl
    | ⟨1, _⟩ => exact absurd rfl hb
    | ⟨2, _⟩ => rfl
  rcases (by omega : r.val = 0 ∨ r.val = 1 ∨ r.val = 2 ∨ (3 ≤ r.val ∧ r.val < 259) ∨ r.val = 259 ∨ r.val = 260 ∨ r.val = 261)
    with h | h | h | h | h | h | h
  · exact (concatenate_apply_piece (1 : Fin 3) (rowPieces v h2 h1 h0 h255 h254 h253) hc (ix3 n r q) 0 (by show (0 : Nat) < 7; omega) S32x1x256 _ rfl rfl
      0 rfl (ix3 n (0 : Fin 1) q) hi (by show 0 + 0 = r.val; omega)).trans
      (rowSlice_apply v 2 h2 n q (mir r) (by rw [mir_val, mirN_low (by omega)]; omega))
  · exact (concatenate_apply_piece (1 : Fin 3) (rowPieces v h2 h1 h0 h255 h254 h253) hc (ix3 n r q) 1 (by show (1 : Nat) < 7; omega) S32x1x256 _ rfl rfl
      1 rfl (ix3 n (0 : Fin 1) q) hi (by show 1 + 0 = r.val; omega)).trans
      (rowSlice_apply v 1 h1 n q (mir r) (by rw [mir_val, mirN_low (by omega)]; omega))
  · exact (concatenate_apply_piece (1 : Fin 3) (rowPieces v h2 h1 h0 h255 h254 h253) hc (ix3 n r q) 2 (by show (2 : Nat) < 7; omega) S32x1x256 _ rfl rfl
      2 rfl (ix3 n (0 : Fin 1) q) hi (by show 2 + 0 = r.val; omega)).trans
      (rowSlice_apply v 0 h0 n q (mir r) (by rw [mir_val, mirN_low (by omega)]; omega))
  · have e : (⟨r.val - 3, by omega⟩ : Fin 256) = mir r := Fin.ext (by rw [mir_val, mirN_mid h.1 h.2])
    rw [← e]
    exact concatenate_apply_piece (1 : Fin 3) (rowPieces v h2 h1 h0 h255 h254 h253) hc (ix3 n r q) 3 (by show (3 : Nat) < 7; omega) S32x256x256 _ rfl rfl
      3 rfl (ix3 n (⟨r.val - 3, by omega⟩ : Fin 256) q) (fun b hb => by
        match b with
        | ⟨0, _⟩ => rfl
        | ⟨1, _⟩ => exact absurd rfl hb
        | ⟨2, _⟩ => rfl) (by show 3 + (r.val - 3) = r.val; omega)
  · exact (concatenate_apply_piece (1 : Fin 3) (rowPieces v h2 h1 h0 h255 h254 h253) hc (ix3 n r q) 4 (by show (4 : Nat) < 7; omega) S32x1x256 _ rfl rfl
      259 rfl (ix3 n (0 : Fin 1) q) hi (by show 259 + 0 = r.val; omega)).trans
      (rowSlice_apply v 255 h255 n q (mir r) (by rw [mir_val, mirN_high (by omega)]; omega))
  · exact (concatenate_apply_piece (1 : Fin 3) (rowPieces v h2 h1 h0 h255 h254 h253) hc (ix3 n r q) 5 (by show (5 : Nat) < 7; omega) S32x1x256 _ rfl rfl
      260 rfl (ix3 n (0 : Fin 1) q) hi (by show 260 + 0 = r.val; omega)).trans
      (rowSlice_apply v 254 h254 n q (mir r) (by rw [mir_val, mirN_high (by omega)]; omega))
  · exact (concatenate_apply_piece (1 : Fin 3) (rowPieces v h2 h1 h0 h255 h254 h253) hc (ix3 n r q) 6 (by show (6 : Nat) < 7; omega) S32x1x256 _ rfl rfl
      261 rfl (ix3 n (0 : Fin 1) q) hi (by show 261 + 0 = r.val; omega)).trans
      (rowSlice_apply v 253 h253 n q (mir r) (by rw [mir_val, mirN_high (by omega)]; omega))

/-! ## The column join -/

/-- The seven pieces joined along the column axis: columns 2, 1, 0 of the row-padded block; that block; its
    columns 255, 254, 253. -/
abbrev colPieces (w : S32x262x256.Idx → α)
    (h2 : S32x262x256.Slices ![0, 0, 2] S32x262x1) (h1 : S32x262x256.Slices ![0, 0, 1] S32x262x1)
    (h0 : S32x262x256.Slices ![0, 0, 0] S32x262x1) (h255 : S32x262x256.Slices ![0, 0, 255] S32x262x1)
    (h254 : S32x262x256.Slices ![0, 0, 254] S32x262x1) (h253 : S32x262x256.Slices ![0, 0, 253] S32x262x1) :
    List ((s : Shape) × (s.Idx → α)) :=
  [⟨S32x262x1, extractStridedSlice S32x262x1 ![0, 0, 2] w h2⟩, ⟨S32x262x1, extractStridedSlice S32x262x1 ![0, 0, 1] w h1⟩,
   ⟨S32x262x1, extractStridedSlice S32x262x1 ![0, 0, 0] w h0⟩, ⟨S32x262x256, w⟩,
   ⟨S32x262x1, extractStridedSlice S32x262x1 ![0, 0, 255] w h255⟩, ⟨S32x262x1, extractStridedSlice S32x262x1 ![0, 0, 254] w h254⟩,
   ⟨S32x262x1, extractStridedSlice S32x262x1 ![0, 0, 253] w h253⟩]

/-- The column join at column `q` is the row-padded block's column `mirror q`. -/
theorem colJoin_apply (w : S32x262x256.Idx → α) (h2 h1 h0 h255 h254 h253)
    (hc : Shape.Concatenates ((colPieces w h2 h1 h0 h255 h254 h253).map (·.1)) S32x262x262 2)
    (n : Fin 32) (r : Fin 262) (q : Fin 262) :
    concatenate S32x262x262 2 (colPieces w h2 h1 h0 h255 h254 h253) hc (ix3 n r q) = w (ix3 n r (mir q)) := by
  have hq := q.isLt
  -- off the column axis a one-column piece's index has the output index's coordinates
  have hi : ∀ b : Fin S32x262x1.rank, b.cast (rfl : S32x262x1.rank = S32x262x262.rank) ≠ (2 : Fin 3) →
      ((ix3 n r (0 : Fin 1) : S32x262x1.Idx) b).val = ((ix3 n r q : S32x262x262.Idx) (b.cast rfl)).val := fun b hb => by
    match b with
    | ⟨0, _⟩ => rfl
    | ⟨1, _⟩ => rfl
    | ⟨2, _⟩ => exact absurd rfl hb
  rcases (by omega : q.val = 0 ∨ q.val = 1 ∨ q.val = 2 ∨ (3 ≤ q.val ∧ q.val < 259) ∨ q.val = 259 ∨ q.val = 260 ∨ q.val = 261)
    with h | h | h | h | h | h | h
  · exact (concatenate_apply_piece (2 : Fin 3) (colPieces w h2 h1 h0 h255 h254 h253) hc (ix3 n r q) 0 (by show (0 : Nat) < 7; omega) S32x262x1 _ rfl rfl
      0 rfl (ix3 n r (0 : Fin 1)) hi (by show 0 + 0 = q.val; omega)).trans
      (colSlice_apply w 2 h2 n r (mir q) (by rw [mir_val, mirN_low (by omega)]; omega))
  · exact (concatenate_apply_piece (2 : Fin 3) (colPieces w h2 h1 h0 h255 h254 h253) hc (ix3 n r q) 1 (by show (1 : Nat) < 7; omega) S32x262x1 _ rfl rfl
      1 rfl (ix3 n r (0 : Fin 1)) hi (by show 1 + 0 = q.val; omega)).trans
      (colSlice_apply w 1 h1 n r (mir q) (by rw [mir_val, mirN_low (by omega)]; omega))
  · exact (concatenate_apply_piece (2 : Fin 3) (colPieces w h2 h1 h0 h255 h254 h253) hc (ix3 n r q) 2 (by show (2 : Nat) < 7; omega) S32x262x1 _ rfl rfl
      2 rfl (ix3 n r (0 : Fin 1)) hi (by show 2 + 0 = q.val; omega)).trans
      (colSlice_apply w 0 h0 n r (mir q) (by rw [mir_val, mirN_low (by omega)]; omega))
  · have e : (⟨q.val - 3, by omega⟩ : Fin 256) = mir q := Fin.ext (by rw [mir_val, mirN_mid h.1 h.2])
    rw [← e]
    exact concatenate_apply_piece (2 : Fin 3) (colPieces w h2 h1 h0 h255 h254 h253) hc (ix3 n r q) 3 (by show (3 : Nat) < 7; omega) S32x262x256 _ rfl rfl
      3 rfl (ix3 n r (⟨q.val - 3, by omega⟩ : Fin 256)) (fun b hb => by
        match b with
        | ⟨0, _⟩ => rfl
        | ⟨1, _⟩ => rfl
        | ⟨2, _⟩ => exact absurd rfl hb) (by show 3 + (q.val - 3) = q.val; omega)
  · exact (concatenate_apply_piece (2 : Fin 3) (colPieces w h2 h1 h0 h255 h254 h253) hc (ix3 n r q) 4 (by show (4 : Nat) < 7; omega) S32x262x1 _ rfl rfl
      259 rfl (ix3 n r (0 : Fin 1)) hi (by show 259 + 0 = q.val; omega)).trans
      (colSlice_apply w 255 h255 n r (mir q) (by rw [mir_val, mirN_high (by omega)]; omega))
  · exact (concatenate_apply_piece (2 : Fin 3) (colPieces w h2 h1 h0 h255 h254 h253) hc (ix3 n r q) 5 (by show (5 : Nat) < 7; omega) S32x262x1 _ rfl rfl
      260 rfl (ix3 n r (0 : Fin 1)) hi (by show 260 + 0 = q.val; omega)).trans
      (colSlice_apply w 254 h254 n r (mir q) (by rw [mir_val, mirN_high (by omega)]; omega))
  · exact (concatenate_apply_piece (2 : Fin 3) (colPieces w h2 h1 h0 h255 h254 h253) hc (ix3 n r q) 6 (by show (6 : Nat) < 7; omega) S32x262x1 _ rfl rfl
      261 rfl (ix3 n r (0 : Fin 1)) hi (by show 261 + 0 = q.val; omega)).trans
      (colSlice_apply w 253 h253 n r (mir q) (by rw [mir_val, mirN_high (by omega)]; omega))

/-! ## The stored value -/

/-- THE BODY'S STORED VALUE at (n, r, q) is the loaded block at (n, mirror r, mirror q): the column join of the row
    join of the block (the body's shape cast of the loaded block to its own shape is the identity). -/
theorem pay_apply {F : FTy → Type} [FloatOps F] (v0 : Vec F S32x256x256 .f32) (n : Fin 32) (r q : Fin 262) :
    k0_pay1 v0 (ix3 n r q) = v0 (ix3 n (mir r) (mir q)) := by
  unfold k0_pay1
  refine (colJoin_apply _ _ _ _ _ _ _ _ n r q).trans ?_
  refine (rowJoin_apply _ _ _ _ _ _ _ _ n r (mir q)).trans ?_
  exact congrFun (shapeCast_self v0 _) _

end Cert.KernelIdeal.Body

end
-- ==== Proof.Reshape.lean ====
/-
  The two reshapes around the kernel, read at an index.

  Before the kernel the argument's two leading axes, 16 × 64, are flattened into one axis of 1024;
  after it the result's axis of 1024 is split back into 16 × 64.  A reshape keeps the row-major
  position, so image (b, c) is image 64·b + c of the flat array and back.  Padding the flat array's
  images and splitting the image axis again is therefore padding the images of the argument.
-/
import proofs.«128857_j12421045420114_1_alg».proof.Proof.Mirror
import Idealize.ShloMosaic.Lib.Pipeline.Value
import Idealize.ShloMosaic.Lib.ValueIdx

noncomputable section

namespace Cert.SymPad

open Idealize.ShloMosaic Idealize.ShloMosaic.ValueIdx

variable {α : Type}

/-- Image (b, c) of 16 × 64 is image 64·b + c of 1024. -/
def flatImage (b : Fin 16) (c : Fin 64) : Fin 1024 := ⟨b.val * 64 + c.val, by omega⟩

/-- Flatten the image axes, pad, split the image axis: the padded array. -/
theorem split_paddedFlat_flatten (x : (⟨4, ![16, 64, 256, 256]⟩ : Shape).Idx → α)
    (h₁ : (⟨4, ![16, 64, 256, 256]⟩ : Shape).ShapeCasts ⟨3, ![1024, 256, 256]⟩)
    (h₂ : (⟨3, ![1024, 262, 262]⟩ : Shape).ShapeCasts ⟨4, ![16, 64, 262, 262]⟩) :
    shapeCast ⟨4, ![16, 64, 262, 262]⟩ (paddedFlat (shapeCast ⟨3, ![1024, 256, 256]⟩ x h₁)) h₂ = padded x := by
  funext j
  obtain ⟨b, c, r, q, rfl⟩ : ∃ (b : Fin 16) (c : Fin 64) (r q : Fin 262), j = ix4 b c r q := ⟨j 0, j 1, j 2, j 3, eq_ix4 j⟩
  have hb := b.isLt
  have hc := c.isLt
  refine (shapeCast_apply _ h₂ (ix4 b c r q) (ix3 (flatImage b c) r q) ?_).trans ?_
  · rw [Shape.rowMajor_val_three, Shape.rowMajor_val_four]
    rfl
  show shapeCast ⟨3, ![1024, 256, 256]⟩ x h₁ (ix3 (flatImage b c) (mir r) (mir q)) = x (ix4 b c (mir r) (mir q))
  refine shapeCast_apply x h₁ _ (ix4 b c (mir r) (mir q)) ?_
  rw [Shape.rowMajor_val_three, Shape.rowMajor_val_four]
  rfl

end Cert.SymPad

end
-- ==== Proof.KernelValue.lean ====
/-
  What the kernel's program computes: the padded array.

  The program flattens the argument's 16 × 64 images into 1024, runs the kernel over 32 grid points —
  point t stages images 32·t … 32·t + 31 (a block of the flat array, whole rows and columns), stores
  in the output block their symmetric padding, and writes that block back at images 32·t … 32·t + 31
  of the flat result — and splits the flat result's image axis back into 16 × 64.
  What point t writes back is therefore block t of ONE function of the flat operand, its padding; the
  32 output blocks tile the flat result (image i lies in block i / 32), so the flat result is the padding
  of the flat operand; and with the two reshapes the program's result is the padded argument.
-/
import proofs.«128857_j12421045420114_1_alg».proof.Proof.Gen.KernelIdeal.Frame
import proofs.«128857_j12421045420114_1_alg».proof.Proof.PadBody
import proofs.«128857_j12421045420114_1_alg».proof.Proof.Reshape
import proofs.«128857_j12421045420114_1_alg».proof.Proof.Mirror
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.PadValue

open Cert.KernelIdeal Cert.KernelIdeal.Gen Cert.KernelIdeal.Body Cert.SymPad
open Idealize.ShloMosaic.ValueIdx

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl

/-- The flat operand as the kernel finds it. -/
abbrev operand (c : Dev nD) : S1024x256x256.Idx → Elt F .f32 := V m c main_v0

/-- The printed index maps, decided over the grid: at point t both windows' blocks start at image block t, row 0,
    column 0. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- WHAT POINT t WRITES BACK is block t of the padding of the flat operand. -/
theorem flushed_eq (c : Dev nD) (t : Fin cfg0.N) :
    (dats m 0 c).flushed 1 t = ((cfg0.win 1).blk t).view.read (Elt F) (paddedFlat (operand m c)) := by
  show (cfg0.win 1).cut (grid0.coords t) ((dats m 0 c).after 1 t) = _
  rw [after0_1]
  unfold out0_1
  rw [View.canon_unit_zero hz3]
  simp only [View.ld_unit_zero (S := S32x256x256) hz3]
  obtain ⟨e0, e1, e2, e3, e4, e5⟩ := idx_facts t
  funext j
  obtain ⟨n, r, q, rfl⟩ : ∃ (n : Fin 32) (r q : Fin 262), j = ix3 n r q := ⟨j 0, j 1, j 2, eq_ix3 j⟩
  show k0_pay1 (iblk m c 0 t) (ix3 n r q) = paddedFlat (operand m c) (((cfg0.win 1).blk t).view.emb (ix3 n r q))
  refine (pay_apply (iblk m c 0 t) n r q).trans ?_
  -- the input block's element (n, mirror r, mirror q) and the output block's element (n, r, q) sit in the same image
  have hemb : ((cfg0.win 0).blk t).view.emb (ix3 n (mir r) (mir q))
      = ix3 ((((cfg0.win 1).blk t).view.emb (ix3 n r q)) 0 : Fin 1024) (mir ((((cfg0.win 1).blk t).view.emb (ix3 n r q)) 1))
          (mir ((((cfg0.win 1).blk t).view.emb (ix3 n r q)) 2)) := by
    funext a; apply Fin.ext
    match a with
    | ⟨0, _⟩ =>
      show win0_0.index t (0 : Fin 3) * 32 + 1 * n.val = win0_1.index t (0 : Fin 3) * 32 + 1 * n.val
      rw [e0, e3]
    | ⟨1, _⟩ =>
      show win0_0.index t (1 : Fin 3) * 256 + 1 * mirN r.val = mirN (win0_1.index t (1 : Fin 3) * 262 + 1 * r.val)
      rw [e1, e4, Nat.zero_mul, Nat.zero_add, Nat.zero_add, Nat.one_mul, Nat.one_mul]
    | ⟨2, _⟩ =>
      show win0_0.index t (2 : Fin 3) * 256 + 1 * mirN q.val = mirN (win0_1.index t (2 : Fin 3) * 262 + 1 * q.val)
      rw [e2, e5, Nat.zero_mul, Nat.zero_add, Nat.zero_add, Nat.one_mul, Nat.one_mul]
  show V m c main_v0 (((cfg0.win 0).blk t).view.emb (ix3 n (mir r) (mir q))) = _
  rw [hemb]
  rfl

/-- An image of the flat result is in point t's block iff each coordinate is in the block's range on its axis. -/
theorem mem_blk (t : Fin cfg0.N) (i : S1024x262x262.Idx) :
    i ∈ ((cfg0.win 1).blk t).view.set ↔ ∀ a : Fin 3, win0_1.index t a * S32x262x262.size a ≤ (i a).val
      ∧ (i a).val < win0_1.index t a * S32x262x262.size a + S32x262x262.size a := by
  show i ∈ ((View.whole main_v1).slice (win0_1.rect t)).set ↔ _
  rw [View.set_slice_whole, Rect.mem_set_unit]
  exact Iff.rfl

/-- The output blocks tile the flat result: image i lies in the block of point i / 32. -/
theorem cover (i : S1024x262x262.Idx) :
    ∃ t : Fin cfg0.N, (cfg0.win 1).flush t = true ∧ i ∈ ((cfg0.win 1).blk t).view.set := by
  have hN : cfg0.N = 32 := N_0
  have hi0 : (i 0).val < 1024 := (i 0).isLt
  have hi1 : (i 1).val < 262 := (i 1).isLt
  have hi2 : (i 2).val < 262 := (i 2).isLt
  obtain ⟨t, ht⟩ : ∃ t : Fin cfg0.N, t.val = (i 0).val / 32 := ⟨⟨(i 0).val / 32, by rw [hN]; omega⟩, rfl⟩
  obtain ⟨e0, e1, e2, e3, e4, e5⟩ := idx_facts t
  refine ⟨t, flush0_1 t, ?_⟩
  rw [mem_blk]
  intro a
  match a with
  | ⟨0, _⟩ =>
    show win0_1.index t (0 : Fin 3) * 32 ≤ (i 0).val ∧ (i 0).val < win0_1.index t (0 : Fin 3) * 32 + 32
    omega
  | ⟨1, _⟩ =>
    show win0_1.index t (1 : Fin 3) * 262 ≤ (i 1).val ∧ (i 1).val < win0_1.index t (1 : Fin 3) * 262 + 262
    omega
  | ⟨2, _⟩ =>
    show win0_1.index t (2 : Fin 3) * 262 ≤ (i 2).val ∧ (i 2).val < win0_1.index t (2 : Fin 3) * 262 + 262
    omega

/-- THE FLAT RESULT after the kernel is the padding of the flat operand. -/
theorem flat_result (c : Dev nD) : (dats m 0 c).arrAt 1 cfg0.N = paddedFlat (operand m c) :=
  (dats m 0 c).arrAt_eq_of_cover 1 (paddedFlat (operand m c)) (fun t _ => flushed_eq m c t) cover

/-- The flat operand is the argument with its two image axes flattened. -/
theorem operand_eq (c : Dev nD) :
    operand m c = shapeCast S1024x256x256 (m ((c : Thread nD τ).loc main_arg0)) shapeCasts_S16x64x256x256_S1024x256x256 := by
  show StableHlo.after hostOps0 (fun b => m (c, b)) (Proc.devRef .tc main_v0) = _
  after_results
  rfl

/-- The program's result is the flat result with its image axis split. -/
theorem tail_eq (c : Dev nD) :
    Pipeline.afterTail₀ cfgs (dats m) 0 (V0 m) [hostOps1] c main_v2
      = shapeCast S16x64x262x262 ((dats m 0 c).arrAt 1 cfg0.N) shapeCasts_S1024x262x262_S16x64x262x262 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = (dats m 0 c).arrAt 1 cfg0.N :=
    Pipeline.withArrays_arr spec0 launch0.win.arr_inj c (V0 m c) (fun w => (dats m 0 c).arrAt w cfg0.N) 1
  rw [hw]
  rfl

/-- THE PROGRAM'S RESULT is the padded argument: flatten, pad, split. -/
theorem result_eq (c : Dev nD) :
    Pipeline.afterTail₀ cfgs (dats m) 0 (V0 m) [hostOps1] c main_v2
      = padded (α := Elt F .f32) (m ((c : Thread nD τ).loc main_arg0)) := by
  rw [tail_eq, flat_result, operand_eq]
  exact split_paddedFlat_flatten _ _ _

/-- The run, read: every weakly fair execution ends with the result array at the padded argument and the argument
    unchanged. -/
theorem run : θ_run defs (onTc (τ := τ) (main (F := F))) ⟨m, fun _ => 0, ρ⟩ fun r => ∀ c : Dev nD,
      r.2.mem ((c.tc : Thread nD τ).loc main_v2) = padded (α := Elt F .f32) (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c)⟩)
    (run_main m ρ)

end Cert.KernelIdeal.PadValue

end
-- ==== Proof.GatherRead.lean ====
/-
  The reference's gather, read at an index.

  The gather takes whole (b, c) fibres — its offset axes are the operand's first two axes, with slice
  sizes 16 and 64 — and collapses the operand's row and column axes, whose start positions it reads
  from the index array: output element (b, c, r, q) is the operand at
  (b, c, clamp (start[r, q, 0]), clamp (start[r, q, 1])), each start read as a signed integer and
  clamped into [0, 255].
-/
import proofs.«128857_j12421045420114_1_alg».proof.Proof.Gen.ReferenceIdeal
import Idealize.ShloMosaic.Lib.ValueIdx

noncomputable section

namespace Cert.ReferenceIdeal.Gather

open Cert.ReferenceIdeal Cert.ReferenceIdeal.Gen
open Idealize.ShloMosaic Idealize.ShloMosaic.ValueIdx

/-- The gather's dimension numbers. -/
abbrev gd : GatherDims S16x64x256x256 S262x262x2 S16x64x262x262 :=
  gather_S16x64x256x256_S262x262x2_S16x64x262x262_01_23_n_n_23_2_166411

/-- The start-index position that output element (·, ·, r, q) reads for the row axis is (r, q, 0). -/
theorem siIdx_row (b : Fin 16) (c : Fin 64) (r q : Fin 262) (h) :
    gd.siIdx (ix4 b c r q) ⟨List.idxOf (2 : Fin 4) gd.startIndexMap, h⟩ = ix3 r q (0 : Fin 2) := by
  funext a; refine Fin.ext ?_
  match a with
  | ⟨0, _⟩ => rfl
  | ⟨1, _⟩ => rfl
  | ⟨2, _⟩ => rfl

/-- … and for the column axis (r, q, 1). -/
theorem siIdx_col (b : Fin 16) (c : Fin 64) (r q : Fin 262) (h) :
    gd.siIdx (ix4 b c r q) ⟨List.idxOf (3 : Fin 4) gd.startIndexMap, h⟩ = ix3 r q (1 : Fin 2) := by
  funext a; refine Fin.ext ?_
  match a with
  | ⟨0, _⟩ => rfl
  | ⟨1, _⟩ => rfl
  | ⟨2, _⟩ => rfl

/-- THE GATHER AT (b, c, r, q): the operand at (b, c, ·, ·) with the two start positions read signed and clamped. -/
theorem gather_apply {α : Type} {w : Nat} (x : S16x64x256x256.Idx → α) (idx : IVec S262x262x2 w)
    (b : Fin 16) (c : Fin 64) (r q : Fin 262) :
    Host.gather gd x idx (ix4 b c r q)
      = x (ix4 b c (⟨min (idx (ix3 r q (0 : Fin 2))).toInt.toNat 255, by omega⟩ : Fin 256)
            (⟨min (idx (ix3 r q (1 : Fin 2))).toInt.toNat 255, by omega⟩ : Fin 256)) := by
  unfold Host.gather
  refine congrArg x (funext fun a => Fin.ext ?_)
  match a with
  | ⟨0, _⟩ =>
    show gd.start (ix4 b c r q) idx 0 + gd.batchCoord (ix4 b c r q) 0 + gd.offCoord (ix4 b c r q) 0 = b.val
    rw [GatherDims.batchCoord_eq_zero _ _ _ List.not_mem_nil]
    unfold GatherDims.start GatherDims.offCoord
    rw [dif_neg (by decide), dif_pos (by decide), Nat.zero_add]
    rfl
  | ⟨1, _⟩ =>
    show gd.start (ix4 b c r q) idx 1 + gd.batchCoord (ix4 b c r q) 1 + gd.offCoord (ix4 b c r q) 1 = c.val
    rw [GatherDims.batchCoord_eq_zero _ _ _ List.not_mem_nil]
    unfold GatherDims.start GatherDims.offCoord
    rw [dif_neg (by decide), dif_pos (by decide), Nat.zero_add]
    rfl
  | ⟨2, _⟩ =>
    show gd.start (ix4 b c r q) idx 2 + gd.batchCoord (ix4 b c r q) 2 + gd.offCoord (ix4 b c r q) 2
      = min (idx (ix3 r q (0 : Fin 2))).toInt.toNat 255
    rw [GatherDims.batchCoord_eq_zero _ _ _ List.not_mem_nil,
      GatherDims.offCoord_eq_zero _ _ _ (fun h => ((GatherDims.mem_sKept _ _).mp h).1 (by decide))]
    unfold GatherDims.start
    rw [dif_pos (by decide), siIdx_row]
    rfl
  | ⟨3, _⟩ =>
    show gd.start (ix4 b c r q) idx 3 + gd.batchCoord (ix4 b c r q) 3 + gd.offCoord (ix4 b c r q) 3
      = min (idx (ix3 r q (1 : Fin 2))).toInt.toNat 255
    rw [GatherDims.batchCoord_eq_zero _ _ _ List.not_mem_nil,
      GatherDims.offCoord_eq_zero _ _ _ (fun h => ((GatherDims.mem_sKept _ _).mp h).1 (by decide))]
    unfold GatherDims.start
    rw [dif_pos (by decide), siIdx_col]
    rfl

end Cert.ReferenceIdeal.Gather

end
-- ==== Proof.RefIndex.lean ====
/-
  The reference, read at an index: it is the padded array.

  The reference builds, for the row axis and again for the column axis, the table of 262 integers
      2, 1, 0,  0, 1, …, 255,  255, 254, 253
  (three pieces joined: 2 − iota, iota, 255 − iota), which at position r holds `mirror r`; wraps a
  negative entry round by adding 256 (no entry is negative, so the wrap selects the entry itself);
  spreads the row table along the columns and the column table along the rows; joins the two into
  one array of (row, column) start positions; and gathers.  Every entry lies in [0, 255], so the
  gather's reading of it as a signed integer, clamped into [0, 255], is the entry.  Hence the
  result at (b, c, r, q) is the argument at (b, c, mirror r, mirror q).
-/
import proofs.«128857_j12421045420114_1_alg».proof.Proof.Gen.ReferenceIdeal.Read
import proofs.«128857_j12421045420114_1_alg».proof.Proof.GatherRead
import proofs.«128857_j12421045420114_1_alg».proof.Proof.Mirror
import Idealize.ShloMosaic.Lib.Pipeline.Value
import Idealize.ShloMosaic.Lib.ValueIdx

noncomputable section

namespace Cert.ReferenceIdeal.Index

open Cert.ReferenceIdeal Cert.ReferenceIdeal.Gen Cert.ReferenceIdeal.Read Cert.ReferenceIdeal.Gather Cert.SymPad
open Idealize.ShloMosaic Idealize.ShloMosaic.ValueIdx

variable {F : FTy → Type} [FloatOps F]

/-! ## Words -/

/-- 2 − k on 32-bit words, for k below 3. -/
theorem two_sub (k : Nat) (hk : k < 3) : IntOp.subi (2#32 : BitVec 32) (BitVec.ofNat 32 k) = BitVec.ofNat 32 (2 - k) := by
  interval_cases k <;> rfl

/-- 255 − k on 32-bit words, for k below 3. -/
theorem top_sub (k : Nat) (hk : k < 3) : IntOp.subi (255#32 : BitVec 32) (BitVec.ofNat 32 k) = BitVec.ofNat 32 (255 - k) := by
  interval_cases k <;> rfl

/-- A word below 256 is not negative as a signed integer … -/
theorem not_neg_small : ∀ k : Fin 256, IntOp.cmpi .slt (BitVec.ofNat 32 k.val) (0#32 : BitVec 32) = 0#1 := by
  decide +kernel

/-- … and read as a signed integer it is itself. -/
theorem toNat_small : ∀ k : Fin 256, (BitVec.ofNat 32 k.val).toInt.toNat = k.val := by
  decide +kernel

/-- The wrap-around of a word below 256 selects the word. -/
theorem wrap_small (k : Nat) (hk : k < 256) :
    Scalar.select (IntOp.cmpi .slt (BitVec.ofNat 32 k) (0#32 : BitVec 32)) (IntOp.addi (BitVec.ofNat 32 k) (256#32 : BitVec 32)) (BitVec.ofNat 32 k)
      = BitVec.ofNat 32 k := by
  rw [not_neg_small ⟨k, hk⟩, select_zero]

/-! ## The table of start positions along one axis -/

/-- Three pieces joined — 2 − k for k below 3, then k for k below 256, then 255 − k for k below 3 — hold `mirror r` at
    position r. -/
theorem table_apply (lo : IVec S3 32) (mid : IVec S256 32) (hi : IVec S3 32)
    (hc : Shape.Concatenates [S3, S256, S3] S262 0)
    (hlo : ∀ k : Fin 3, lo (ix1 k) = BitVec.ofNat 32 (2 - k.val)) (hmid : ∀ k : Fin 256, mid (ix1 k) = BitVec.ofNat 32 k.val)
    (hhi : ∀ k : Fin 3, hi (ix1 k) = BitVec.ofNat 32 (255 - k.val)) (r : Fin 262) :
    concatenate S262 0 [⟨S3, lo⟩, ⟨S256, mid⟩, ⟨S3, hi⟩] hc (ix1 r) = BitVec.ofNat 32 (mirN r.val) := by
  have hr := r.isLt
  rcases (by omega : r.val < 3 ∨ (3 ≤ r.val ∧ r.val < 259) ∨ 259 ≤ r.val) with h | h | h
  · rw [mirN_low h, ← hlo ⟨r.val, h⟩]
    exact concatenate_apply_piece (t := S262) (0 : Fin 1) [⟨S3, lo⟩, ⟨S256, mid⟩, ⟨S3, hi⟩] hc (ix1 r) 0 (by show (0 : Nat) < 3; omega) S3 lo rfl rfl
      0 rfl (ix1 (⟨r.val, h⟩ : Fin 3)) (fun b hb => absurd (Subsingleton.elim _ _) hb) (by show 0 + r.val = r.val; omega)
  · rw [mirN_mid h.1 h.2, ← hmid ⟨r.val - 3, by omega⟩]
    exact concatenate_apply_piece (t := S262) (0 : Fin 1) [⟨S3, lo⟩, ⟨S256, mid⟩, ⟨S3, hi⟩] hc (ix1 r) 1 (by show (1 : Nat) < 3; omega) S256 mid rfl rfl
      3 rfl (ix1 (⟨r.val - 3, by omega⟩ : Fin 256)) (fun b hb => absurd (Subsingleton.elim _ _) hb) (by show 3 + (r.val - 3) = r.val; omega)
  · rw [mirN_high h, show 514 - r.val = 255 - (r.val - 259) by omega, ← hhi ⟨r.val - 259, by omega⟩]
    exact concatenate_apply_piece (t := S262) (0 : Fin 1) [⟨S3, lo⟩, ⟨S256, mid⟩, ⟨S3, hi⟩] hc (ix1 r) 2 (by show (2 : Nat) < 3; omega) S3 hi rfl rfl
      259 rfl (ix1 (⟨r.val - 259, by omega⟩ : Fin 3)) (fun b hb => absurd (Subsingleton.elim _ _) hb) (by show 259 + (r.val - 259) = r.val; omega)

/-- The row table at position r is `mirror r`. -/
theorem rowTable_apply (r : Fin 262) : val_main_v7 (F := F) (ix1 r) = BitVec.ofNat 32 (mirN r.val) := by
  unfold val_main_v7
  refine table_apply _ _ _ _ (fun k => ?_) (fun k => ?_) (fun k => ?_) r
  · rw [val_main_v2_apply, val_main_v1_apply, val_main_c_apply, val_main_v0_apply]
    exact two_sub k.val k.isLt
  · rw [val_main_v3_apply]
  · rw [val_main_v6_apply, val_main_v5_apply, val_main_c_0_apply, val_main_v4_apply]
    exact top_sub k.val k.isLt

/-- The column table at position q is `mirror q`. -/
theorem colTable_apply (q : Fin 262) : val_main_v15 (F := F) (ix1 q) = BitVec.ofNat 32 (mirN q.val) := by
  unfold val_main_v15
  refine table_apply _ _ _ _ (fun k => ?_) (fun k => ?_) (fun k => ?_) q
  · rw [val_main_v10_apply, val_main_v9_apply, val_main_c_1_apply, val_main_v8_apply]
    exact two_sub k.val k.isLt
  · rw [val_main_v11_apply]
  · rw [val_main_v14_apply, val_main_v13_apply, val_main_c_2_apply, val_main_v12_apply]
    exact top_sub k.val k.isLt

/-! ## The array of start positions -/

/-- The start position on the row axis for output (·, ·, r, q) is `mirror r`. -/
theorem rowStart (r q : Fin 262) : val_main_v32 (F := F) (ix3 r q (0 : Fin 2)) = BitVec.ofNat 32 (mirN r.val) := by
  unfold val_main_v32
  refine (concatenate_pair_apply_left (t := S262x262x2) (2 : Fin 3) (val_main_v30 (F := F)) (val_main_v31 (F := F))
    concatenates_S262x262x1_S262x262x1_S262x262x2_d2 (ix3 r q (0 : Fin 2)) rfl (ix3 r q (0 : Fin 1)) (fun b => by
      match b with
      | ⟨0, _⟩ => rfl
      | ⟨1, _⟩ => rfl
      | ⟨2, _⟩ => rfl)).trans ?_
  have e : idx_main_v16 (idx_main_v28 (idx_main_v30 (ix3 r q (0 : Fin 1)))) = ix1 r := by
    funext a; match a with | ⟨0, _⟩ => rfl
  rw [val_main_v30_apply, val_main_v28_apply, val_main_v22_apply, val_main_v19_apply, val_main_v21_apply, val_main_v16_apply,
    val_main_v18_apply, val_main_c_3_apply, val_main_v20_apply, val_main_c_4_apply, e, rowTable_apply]
  exact wrap_small _ (mirN_lt r.isLt)

/-- The start position on the column axis for output (·, ·, r, q) is `mirror q`. -/
theorem colStart (r q : Fin 262) : val_main_v32 (F := F) (ix3 r q (1 : Fin 2)) = BitVec.ofNat 32 (mirN q.val) := by
  unfold val_main_v32
  have hi : ∀ b : Fin S262x262x1.rank, b.cast (rfl : S262x262x1.rank = S262x262x2.rank) ≠ (2 : Fin 3) →
      ((ix3 r q (0 : Fin 1) : S262x262x1.Idx) b).val = ((ix3 r q (1 : Fin 2) : S262x262x2.Idx) (b.cast rfl)).val := fun b hb => by
    match b with
    | ⟨0, _⟩ => rfl
    | ⟨1, _⟩ => rfl
    | ⟨2, _⟩ => exact absurd rfl hb
  refine (concatenate_pair_apply_right (t := S262x262x2) (2 : Fin 3) (val_main_v30 (F := F)) (val_main_v31 (F := F))
    concatenates_S262x262x1_S262x262x1_S262x262x2_d2 (ix3 r q (1 : Fin 2)) rfl rfl (ix3 r q (0 : Fin 1)) hi rfl).trans ?_
  have e : idx_main_v17 (idx_main_v29 (idx_main_v31 (ix3 r q (0 : Fin 1)))) = ix1 q := by
    funext a; match a with | ⟨0, _⟩ => rfl
  rw [val_main_v31_apply, val_main_v29_apply, val_main_v27_apply, val_main_v24_apply, val_main_v26_apply, val_main_v17_apply,
    val_main_v23_apply, val_main_c_5_apply, val_main_v25_apply, val_main_c_6_apply, e, colTable_apply]
  exact wrap_small _ (mirN_lt q.isLt)

/-! ## The reference's result -/

/-- THE REFERENCE IS THE PADDED ARRAY: its gather reads the argument at (b, c, mirror r, mirror q). -/
theorem result_eq (x : (⟨S16x64x256x256, .f32⟩ : BufTy).Contents (Elt F)) : val_main_v33 (F := F) x = padded x := by
  funext j
  obtain ⟨b, c, r, q, rfl⟩ : ∃ (b : Fin 16) (c : Fin 64) (r q : Fin 262), j = ix4 b c r q := ⟨j 0, j 1, j 2, j 3, eq_ix4 j⟩
  unfold val_main_v33
  refine (gather_apply x (val_main_v32 (F := F)) b c r q).trans ?_
  show x _ = x (ix4 b c (mir r) (mir q))
  refine congrArg x (funext fun a => Fin.ext ?_)
  have hr := mirN_lt r.isLt
  have hq := mirN_lt q.isLt
  match a with
  | ⟨0, _⟩ => rfl
  | ⟨1, _⟩ => rfl
  | ⟨2, _⟩ =>
    show min (val_main_v32 (F := F) (ix3 r q (0 : Fin 2))).toInt.toNat 255 = mirN r.val
    rw [rowStart, toNat_small ⟨mirN r.val, hr⟩]
    exact Nat.min_eq_left (by omega)
  | ⟨3, _⟩ =>
    show min (val_main_v32 (F := F) (ix3 r q (1 : Fin 2))).toInt.toNat 255 = mirN q.val
    rw [colStart, toNat_small ⟨mirN q.val, hq⟩]
    exact Nat.min_eq_left (by omega)

end Cert.ReferenceIdeal.Index

end
-- ==== Proof.lean ====
/-
  The certificate: a Pallas kernel that pads the two trailing axes of a 16 × 64 × 256 × 256 array by
  three on each side, mirroring the array at its edges (the edge row or column included), against
  a reference that looks every output element up through precomputed tables of source positions.

  Both programs move data and do no arithmetic on the elements, so the two results are equal as
  functions of the argument, element by element, whatever the elements are; the precondition that
  the inputs be finite is never used.
    * The kernel's program flattens the 16 × 64 images to 1024, and at each of 32 grid points joins,
      for a block of 32 images, the rows 2, 1, 0, the block and the rows 255, 254, 253, then the same
      for the columns of the result; the 32 output blocks tile the flat result, whose image axis is
      split again.  Its result at (b, c, r, q) is the argument at (b, c, mirror r, mirror q), where
      `mirror` sends 0, 1, 2 to 2, 1, 0, then 3 … 258 to 0 … 255, then 259, 260, 261 to 255, 254, 253.
    * The reference's two tables hold `mirror r` at position r; its gather reads the argument at
      (b, c, table[r], table[q]), every table entry being in range.
  The three frame claims are the generated frame runs (the reference's: its run with the result
  dropped); the idealization rewrote nothing, so `preserves` is trivial.
-/
import proofs.«128857_j12421045420114_1_alg».proof.Defs
import proofs.«128857_j12421045420114_1_alg».proof.Proof.Gen.Kernel
import proofs.«128857_j12421045420114_1_alg».proof.Proof.Gen.Kernel.Skeleton
import proofs.«128857_j12421045420114_1_alg».proof.Proof.Gen.Kernel.Launch
import proofs.«128857_j12421045420114_1_alg».proof.Proof.Gen.Kernel.Points
import proofs.«128857_j12421045420114_1_alg».proof.Proof.Gen.Kernel.Frame
import proofs.«128857_j12421045420114_1_alg».proof.Proof.Gen.KernelIdeal
import proofs.«128857_j12421045420114_1_alg».proof.Proof.Gen.KernelIdeal.Skeleton
import proofs.«128857_j12421045420114_1_alg».proof.Proof.Gen.KernelIdeal.Launch
import proofs.«128857_j12421045420114_1_alg».proof.Proof.Gen.KernelIdeal.Points
import proofs.«128857_j12421045420114_1_alg».proof.Proof.Gen.KernelIdeal.Frame
import proofs.«128857_j12421045420114_1_alg».proof.Proof.Gen.ReferenceIdeal
import proofs.«128857_j12421045420114_1_alg».proof.Proof.Gen.Pre_finite_inputs
import proofs.«128857_j12421045420114_1_alg».proof.Proof.Gen.ReferenceIdeal.Run
import proofs.«128857_j12421045420114_1_alg».proof.Proof.Gen.ReferenceIdeal.Read
import proofs.«128857_j12421045420114_1_alg».proof.Proof.KernelValue
import proofs.«128857_j12421045420114_1_alg».proof.Proof.RefIndex
import Idealize.ShloMosaic.Adequacy
import Idealize.ShloMosaic.Init

noncomputable section

namespace Cert.Proof

open Idealize.ShloMosaic Idealize.SL.Sem

/-- The kernel's program as printed runs and leaves its argument as it was. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the argument, the kernel's program ends with its result at the padded argument, and the
    reference with its result at the gather through the two tables — which is the padded argument. -/
theorem algebraic : Cert.algebraic_KernelIdeal_ReferenceIdeal := by
  intro m ρ m' ρ' _ hagree
  refine ⟨_, Cert.KernelIdeal.PadValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.Index.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
